-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S_ : Shape := ⟨0, ![]⟩
abbrev S100000 : Shape := ⟨1, ![100000]⟩
abbrev S1000000x1 : Shape := ⟨2, ![1000000, 1]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  reducesTo_S100000_S_d0 : S100000.ReducesTo [0] S_
  scatter_S100000_S1000000x1_S1000000_n_0_0_1_wf : ScatterDims.WF S100000 S1000000x1 S1000000 [] [0] [0] 1

variable [Facts]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def fn {F : FTy → Type} [FloatOps F] (main_arg0 : FVec F S100000x64 .f32) (main_arg1 : IVec S1000000 32) (main_arg2 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_cst_0 : FVec F S_ .f32 := constant S_ .f32 0x00000000#32
  let main_v4 : FVec F S100000 .f32 := broadcastInDim S100000 ![] bcast_S_S100000 main_cst_0
  let main_v5 : IVec S1000000x1 32 := broadcastInDim S1000000x1 ![0] bcast_S1000000_S1000000x1_0 main_arg1
  let main_cst_1 : FVec F S_ .f32 := constant S_ .f32 0x3F800000#32
  let main_v6 : FVec F S1000000 .f32 := broadcastInDim S1000000 ![] bcast_S_S1000000 main_cst_1
  let main_v7 : FVec F S100000 .f32 := (fun x i u => Host.scatterAdd scatter_S100000_S1000000x1_S1000000_n_0_0_1 x i u) main_v4 main_v5 main_v6
  let main_cst_2 : FVec F S_ .f32 := constant S_ .f32 0x00000000#32
  let main_v8 : FVec F S100000 .f32 := broadcastInDim S100000 ![] bcast_S_S100000 main_cst_2
  let main_v9 : IVec S100000 1 := cmpf .ogt main_v7 main_v8
  let main_c_3 : IVec S_ 1 := constantI S_ 1 1#1
  let main_v10 : IVec S_ 1 := (fun x v => Host.reduce IntOp.andi x v reducesTo_S100000_S_d0 h_S_) main_v9 main_c_3
  let main_v11 : IVec S_ 1 := andi main_v3 main_v10
  main_v11
-- ==== Kernel.lean ====
abbrev S100000x64 : Shape := ⟨2, ![100000, 64]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1000000x64 : Shape := ⟨2, ![1000000, 64]⟩
abbrev S100000x1 : Shape := ⟨2, ![100000, 1]⟩
abbrev S10000x64 : Shape := ⟨2, ![10000, 64]⟩
abbrev S10000x1 : Shape := ⟨2, ![10000, 1]⟩

abbrev nBuf : Space → Nat
  | .hbm => 50
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S_, .f32⟩
  | .hbm, ⟨4, _⟩ => ⟨S1000000, .f32⟩
  | .hbm, ⟨5, _⟩ => ⟨S_, .f32⟩
  | .hbm, ⟨6, _⟩ => ⟨S100000, .f32⟩
  | .hbm, ⟨7, _⟩ => ⟨S1000000x1, .i32⟩
  | .hbm, ⟨8, _⟩ => ⟨S100000, .f32⟩
  | .hbm, ⟨9, _⟩ => ⟨S_, .f32⟩
  | .hbm, ⟨10, _⟩ => ⟨S100000, .f32⟩
  | .hbm, ⟨11, _⟩ => ⟨S100000, .i1⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x64, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000, .f32⟩
  | .hbm, ⟨41, _⟩ => ⟨S1000000x1, .f32⟩
  | .hbm, ⟨42, _⟩ => ⟨S1000000x64, .f32⟩
  | .hbm, ⟨43, _⟩ => ⟨S1000000x64, .f32⟩
  | .hbm, ⟨44, _⟩ => ⟨S_, .f32⟩
  | .hbm, ⟨45, _⟩ => ⟨S100000x64, .f32⟩
  | .hbm, ⟨46, _⟩ => ⟨S1000000x1, .i32⟩
  | .hbm, ⟨47, _⟩ => ⟨S100000x64, .f32⟩
  | .hbm, ⟨48, _⟩ => ⟨S100000x1, .f32⟩
  | .hbm, ⟨49, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_6 : Ref sig .tc := ⟨.hbm, 32, rfl⟩
abbrev main_v19 : Ref sig .tc := ⟨.hbm, 33, rfl⟩
abbrev main_v20 : Ref sig .tc := ⟨.hbm, 34, rfl⟩
abbrev main_c_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  gather_S100000_S1000000x1_S1000000_n_0_n_n_0_1_1_wf : GatherDims.WF S100000 S1000000x1 S1000000 [] [0] [] [0] [] 1 ![1]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_v31) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1000000x64 : Shape := ⟨2, ![1000000, 64]⟩
abbrev S100000x1 : Shape := ⟨2, ![100000, 1]⟩

abbrev nBuf : Space → Nat
  | .hbm => 41
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S_, .f32⟩
  | .hbm, ⟨4, _⟩ => ⟨S1000000, .f32⟩
  | .hbm, ⟨5, _⟩ => ⟨S_, .f32⟩
  | .hbm, ⟨6, _⟩ => ⟨S100000, .f32⟩
  | .hbm, ⟨7, _⟩ => ⟨S1000000x1, .i32⟩
  | .hbm, ⟨8, _⟩ => ⟨S100000, .f32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S100000, .f32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x64, .f32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000, .f32⟩
  | .hbm, ⟨31, _⟩ => ⟨S1000000x1, .f32⟩
  | .hbm, ⟨32, _⟩ => ⟨S1000000x64, .f32⟩
  | .hbm, ⟨33, _⟩ => ⟨S1000000x64, .f32⟩
  | .hbm, ⟨34, _⟩ => ⟨S_, .f32⟩
  | .hbm, ⟨35, _⟩ => ⟨S100000x64, .f32⟩
  | .hbm, ⟨36, _⟩ => ⟨S1000000x1, .i32⟩
  | .hbm, ⟨37, _⟩ => ⟨S100000x64, .f32⟩
  | .hbm, ⟨38, _⟩ => ⟨S100000x1, .f32⟩
  | .hbm, ⟨39, _⟩ => ⟨S100000x64, .f32⟩
  | .hbm, ⟨40, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  gather_S100000_S1000000x1_S1000000_n_0_n_n_0_1_1_wf : GatherDims.WF S100000 S1000000x1 S1000000 [] [0] [] [0] [] 1 ![1]
  scatter_S100000x64_S1000000x1_S1000000x64_1_0_0_1_wf : ScatterDims.WF S100000x64 S1000000x1 S1000000x64 [1] [0] [0] 1

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.HostPart.lean ====
/-
  WHAT THE REGION FINDS IN ITS TWO INPUT ARRAYS: the host operations before the kernel, as functions of the arguments.

  From the node features `x` ([100000, 64]) and the edge lists `src`, `dst` ([1000000] each):
  * `outDeg src` — a node's out-degree: zeros with a one added for every edge at its source node;
  * `guardedScale src` — per node `1 / √(max deg 1)` where `deg > 0`, else `0`;
  * `aggregated x src dst sc` — for a per-node scale `sc`: every edge carries its source node's feature row times
    that node's scale (the source index wrapped when negative, then clamped by the gather), and the rows are summed
    into their destination nodes.
  The region's first window is `aggregated x src dst (guardedScale src)`, its second `guardedScale src` laid out as
  a column. `aggregated` is stated for ANY scale so that the reference's plain `1 / √deg` can be put in its place.
-/
import proofs.«126317_j34703335752220_2_alg».proof.Proof.Gen.KernelIdeal.Frame
import Idealize.ShloMosaic.Lib.StableHlo.Run

noncomputable section

namespace Cert.KernelIdeal.HostPart

open Cert.KernelIdeal Cert.KernelIdeal.Gen Idealize.ShloMosaic Idealize.ShloMosaic.TcCoe Idealize.SL.Sem
open Idealize.ShloMosaic.StableHlo

variable {F : FTy → Type} [FloatOps F]

/-- Each node's out-degree: an array of zeros onto which a one is added for every edge, at the edge's source node. -/
def outDeg (src : IVec S1000000 32) : FVec F S100000 .f32 :=
  Host.scatterAdd scatter_S100000_S1000000x1_S1000000_n_0_0_1
    (broadcastInDim S100000 ![] bcast_S_S100000 (constant S_ .f32 0x00000000#32))
    (broadcastInDim S1000000x1 ![0] bcast_S1000000_S1000000x1_0 src)
    (broadcastInDim S1000000 ![] bcast_S_S1000000 (constant S_ .f32 0x3F800000#32))

/-- The kernel program's per-node scale: `1 / √(max deg 1)` where the out-degree is positive, else `0`. -/
def guardedScale (src : IVec S1000000 32) : FVec F S100000 .f32 :=
  select (cmpf .ogt (outDeg (F := F) src) (broadcastInDim S100000 ![] bcast_S_S100000 (constant S_ .f32 0x00000000#32)))
    (Host.divf (broadcastInDim S100000 ![] bcast_S_S100000 (constant S_ .f32 0x3F800000#32))
      (Host.sqrt (maximumf (outDeg src) (broadcastInDim S100000 ![] bcast_S_S100000 (constant S_ .f32 0x3F800000#32)))))
    (broadcastInDim S100000 ![] bcast_S_S100000 (constant S_ .f32 0x00000000#32))

/-- The source indices as the gathers read them: a negative index has the node count added; laid out as a column. -/
def wrapped (src : IVec S1000000 32) : IVec S1000000x1 32 :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 100000#32))) src)

/-- The messages summed into their destinations, for a per-node scale `sc`: edge `e` carries row `src e` of `x`
    times `sc (src e)`, added onto row `dst e` of an array of zeros. -/
def aggregated (x : FVec F S100000x64 .f32) (src dst : IVec S1000000 32) (sc : FVec F S100000 .f32) :
    FVec F S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst)
    (mulf (Host.gather gather_S100000x64_S1000000x1_S1000000x64_1_0_n_n_0_1_164 x (wrapped src))
      (broadcastInDim S1000000x64 ![0, 1] bcast_S1000000x1_S1000000x64_0_1
        (broadcastInDim S1000000x1 ![0] bcast_S1000000_S1000000x1_0
          (Host.gather gather_S100000_S1000000x1_S1000000_n_0_n_n_0_1_1 sc (wrapped src)))))

variable (m : (ℓ : Loc nD τ sig) → Buf (Elt F) ℓ)

set_option maxHeartbeats 4000000 in
/-- The region's first window: the aggregated messages under the guarded scale. -/
theorem V_aggregated (c : Dev nD) :
    (V m c main_v31 : S100000x64.Idx → Elt F .f32)
      = aggregated (m ((c : Thread nD τ).loc main_arg0)) (m ((c : Thread nD τ).loc main_arg1))
          (m ((c : Thread nD τ).loc main_arg2)) (guardedScale (m ((c : Thread nD τ).loc main_arg1))) := by
  dsimp only [V]
  simp only [hostOps0, hostOps0_1, hostOps0_2, List.flatten_cons, List.flatten_nil, List.append_nil, List.cons_append,
    List.nil_append]
  after_results_simp
  rfl

set_option maxHeartbeats 4000000 in
/-- The region's second window: the guarded scale laid out as a column. -/
theorem V_scaleColumn (c : Dev nD) :
    (V m c main_v32 : S100000x1.Idx → Elt F .f32)
      = shapeCast S100000x1 (guardedScale (m ((c : Thread nD τ).loc main_arg1))) shapeCasts_S100000_S100000x1 := by
  dsimp only [V]
  simp only [hostOps0, hostOps0_1, hostOps0_2, List.flatten_cons, List.flatten_nil, List.append_nil, List.cons_append,
    List.nil_append]
  after_results_simp
  rfl

end Cert.KernelIdeal.HostPart

end
-- ==== Proof.RowScale.lean ====
/-
  THE KERNEL'S RESULT ARRAY: every row of the aggregated array multiplied through by that row's scale.

  The kernel walks ten blocks of 10000 rows. At block `t` it loads rows `10000·t … 10000·t + 9999` of the aggregated
  array `agg` ([100000, 64]) and the same rows of the scale column `s` ([100000, 1]), spreads the column over the 64
  lanes and multiplies: block entry `(p, q)` is `agg(10000·t + p, q) · s(10000·t + p, 0)`. That is block `t` of ONE
  whole-array function, `rowScaled agg s (r, q) = agg(r, q) · s(r, 0)`; the ten blocks tile the array (row `r` lies in
  block `r / 10000`), so after the run the result array is `rowScaled agg s`.
-/
import proofs.«126317_j34703335752220_2_alg».proof.Proof.Gen.KernelIdeal.Value

noncomputable section

namespace Cert.KernelIdeal.RowScale

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's loads and its store start at the origin of their buffers. -/
theorem origin : (![0, 0] : Fin 2 → Nat) = fun _ => 0 := funext fun a => by fin_cases a <;> rfl

/-- The entry of the scale column in the row of `i`. -/
abbrev rowOf (i : S100000x64.Idx) : S100000x1.Idx := fun a => match a with
  | ⟨0, _⟩ => ⟨(i 0).val, by have h : (i 0).val < 100000 := (i 0).isLt; exact h⟩
  | ⟨1, _⟩ => ⟨0, by show 0 < 1; omega⟩

/-- Every row of `a` multiplied through by that row's entry of the column `s`. -/
abbrev rowScaled (a : S100000x64.Idx → Elt F .f32) (s : S100000x1.Idx → Elt F .f32) : S100000x64.Idx → Elt F .f32 :=
  fun i => FloatOps.mulf (a i) (s (rowOf i))

/-- What the body leaves in the output block, entry by entry: the loaded block entry times the loaded column's entry
    of the same row. -/
theorem out_apply (x0 : Vec F S10000x64 .f32) (x1 : Vec F S10000x1 .f32) (y : S10000x64.Idx) :
    out0_2 x0 x1 y = FloatOps.mulf (x0 y) (x1 (Value.ix2_1 y)) := by
  unfold out0_2
  rw [Value.canon2_eq]
  show FloatOps.mulf (View.ld x0 r0_0 (Value.ix2_0 y)) (View.ld x1 r0_1 (Value.ix2_1 y)) = _
  rw [View.ld_unit_zero (S := S10000x64) origin, View.ld_unit_zero (S := S10000x1) origin]
  have e : Value.ix2_0 y = y := by
    funext a; apply Fin.ext
    match a with
    | ⟨0, _⟩ => rfl
    | ⟨1, _⟩ => rfl
  rw [e]

/-- The printed index maps over the ten grid points: both inputs' blocks move with the output's along the rows, none
    moves along the columns, and the output's row-block index stays below ten. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some grid point's. -/
theorem idx_onto : ∀ q : Fin 10, ∃ t : Fin cfg0.N, win0_2.index t = ![q.val, 0] :=
  (by decide +kernel : ∀ q : Fin 10, ∃ t : Fin grid0.N, win0_2.index t = ![q.val, 0])

/-- WHAT POINT `t` WRITES BACK is block `t` of `rowScaled` of the two arrays the region finds. -/
theorem flushed_eq (c : Dev nD) (t : Fin cfg0.N) :
    (dats m 0 c).flushed 2 t
      = ((cfg0.win 2).blk t).view.read (Elt F) (rowScaled (V m c main_v31) (V m c main_v32)) := by
  rw [Value.flushed2]
  obtain ⟨e0, e1, e2, e3, e4, e5⟩ := idx_facts t
  funext y
  show out0_2 (iblk m c 0 t) (iblk m c 1 t) y = _
  refine (out_apply (iblk m c 0 t) (iblk m c 1 t) y).trans ?_
  show FloatOps.mulf (V m c main_v31 (((cfg0.win 0).blk t).view.emb y))
      (V m c main_v32 (((cfg0.win 1).blk t).view.emb (Value.ix2_1 y)))
    = FloatOps.mulf (V m c main_v31 (((cfg0.win 2).blk t).view.emb y))
      (V m c main_v32 (rowOf (((cfg0.win 2).blk t).view.emb y)))
  have hy0 : (y 0).val < 10000 := (y 0).isLt
  have hy1 : (y 1).val < 64 := (y 1).isLt
  have h0 : ((cfg0.win 0).blk t).view.emb y = ((cfg0.win 2).blk t).view.emb y := by
    funext a; apply Fin.ext
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 64 + 1 * (y 1).val = win0_2.index t (1 : Fin 2) * 64 + 1 * (y 1).val; omega
  have h1 : ((cfg0.win 1).blk t).view.emb (Value.ix2_1 y) = rowOf (((cfg0.win 2).blk t).view.emb y) := by
    funext a; apply Fin.ext
    match a with
    | ⟨0, _⟩ => show win0_1.index t (0 : Fin 2) * 10000 + 1 * (y 0).val = win0_2.index t (0 : Fin 2) * 10000 + 1 * (y 0).val; omega
    | ⟨1, _⟩ => show win0_1.index t (1 : Fin 2) * 1 + 1 * 0 = 0; omega
  rw [h0, h1]

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v33).slice (win0_2.rect t)).set ↔ _
  rw [View.set_slice_whole, Rect.mem_set_unit]
  exact Iff.rfl

/-- The ten blocks tile the array: row `r` lies in block `r / 10000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE RESULT ARRAY after the run: the aggregated array, every row scaled by its entry of the column. -/
theorem final (c : Dev nD) : (dats m 0 c).arrAt 2 cfg0.N = rowScaled (V m c main_v31) (V m c main_v32) :=
  (dats m 0 c).arrAt_eq_of_cover 2 _ (fun t _ => flushed_eq m c t) covered

/-- The kernel's run with the result array named: `rowScaled` of the two arrays the region finds, arguments unchanged. -/
theorem run : θ_run defs (onTc (τ := τ) (main (F := F))) ⟨m, fun _ => 0, ρ⟩ fun r => ∀ c : Dev nD,
      r.2.mem ((c : Thread nD τ).loc main_v33) = rowScaled (V m c main_v31) (V m c main_v32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.RowScale

end
-- ==== Proof.LibAllPositive.lean ====
/-
  A printed `jnp.all(d > 0)`, and the second of two tests joined by `and`, for arrays of any shape.

  `jnp.all(d > 0)` prints as the element-wise comparison of `d` against an array `z` of zeros, reduced by `and` over
  every axis from the constant 1. At the extended reals the comparison at an entry is `z < d` there, so the reduction
  coming out 1 says every entry of `d` is positive (`all_pos`). A precondition of two such tests is their `and`; coming
  out 1 everywhere it gives each test 1 (`first_of_and`, `second_of_and`). Stated over the printed term's shape, generic
  in the array's shape and the reduced axes, so that a certificate's own precondition is an instance by unfolding and
  the reduction over a long axis is never evaluated.
-/
import Idealize.ShloMosaic.PureOps.Ideal
import Idealize.ShloMosaic.PureOps.Ideal.Laws
import Idealize.ShloMosaic.Lib.ReduceAll
import Idealize.ShloMosaic.Lib.ValueIdx

noncomputable section

namespace Cert.LibAllPositive

open Idealize.ShloMosaic

/-- The rank-0 shape has one index. -/
instance : Subsingleton (⟨0, ![]⟩ : Shape).Idx := ⟨fun a b => funext fun d => d.elim0⟩

/-- One entry: the printed comparison `a > z` coming out 1 says `z < a`. -/
theorem lt_of_cmp_one (a z : Ideal .f32) (h : FloatOps.cmpf .ogt a z = 1#1) : (z : EReal) < a := by
  have h2 : BitVec.ofBool (decide ((z : EReal) < a)) = 1#1 := h
  by_contra hn
  rw [decide_eq_false hn] at h2
  exact absurd h2 (by decide)

/-- `jnp.all(d > z)` coming out 1, with `z` an array of zeros, says every entry of `d` is positive. -/
theorem all_pos {s : Shape} {axes : List (Fin s.rank)} (d z : FVec Ideal s .f32) (hz : ∀ j, (z j : EReal) = 0)
    (hr : s.ReducesTo axes ⟨0, ![]⟩) (hu : 0 < (⟨0, ![]⟩ : Shape).numel)
    (e : Host.reduce IntOp.andi (cmpf .ogt d z) (constantI ⟨0, ![]⟩ 1 1#1) hr hu ValueIdx.ix0 = 1#1) :
    ∀ j : s.Idx, (0 : EReal) < d j := by
  intro j
  have h1 := Host.reduce_andi_all _ _ hr hu ValueIdx.ix0 e j
  have h2 := lt_of_cmp_one (d j) (z j) h1
  rwa [hz j] at h2

/-- Two tests joined by `and` coming out 1: the first is 1. -/
theorem first_of_and (a b : IVec ⟨0, ![]⟩ 1) (e : andi a b = fun _ => 1#1) : a ValueIdx.ix0 = 1#1 := by
  have h1 : IntOp.andi (a ValueIdx.ix0) (b ValueIdx.ix0) = 1#1 := congrFun e ValueIdx.ix0
  exact (IntOp.andi_eq_one.mp h1).1

/-- Two tests joined by `and` coming out 1: the second is 1. -/
theorem second_of_and (a b : IVec ⟨0, ![]⟩ 1) (e : andi a b = fun _ => 1#1) : b ValueIdx.ix0 = 1#1 := by
  have h1 : IntOp.andi (a ValueIdx.ix0) (b ValueIdx.ix0) = 1#1 := congrFun e ValueIdx.ix0
  exact (IntOp.andi_eq_one.mp h1).2

end Cert.LibAllPositive

end
-- ==== Proof.EveryNodeHasEdge.lean ====
/-
  THE ADDED PRECONDITION, READ: every node has an outgoing edge.

  Besides the finiteness of the features, the precondition asks `jnp.all(out_deg > 0)`, where `out_deg` is spelt as in
  both programs: zeros with a one added for every edge at its source node. It prints as the comparison of that array
  against a zero array, reduced by `and` over the one axis from the constant 1, and joined to the finiteness test by
  `and`. Coming out 1, the conjunction gives the second test 1, the reduction gives the comparison 1 at every node,
  and the comparison at a node is `0 < out_deg` there.
-/
import proofs.«126317_j34703335752220_2_alg».proof.Proof.Gen.Pre_finite_inputs
import proofs.«126317_j34703335752220_2_alg».proof.Proof.LibAllPositive

noncomputable section

namespace Cert.Pre_finite_inputs.EveryNodeHasEdge

open Cert.Pre_finite_inputs Cert.Pre_finite_inputs.Facts Idealize.ShloMosaic

/-- Each node's out-degree, as the precondition spells it: zeros with a one added per edge at its source node. -/
def outDeg (src : IVec S1000000 32) : FVec Ideal S100000 .f32 :=
  Host.scatterAdd scatter_S100000_S1000000x1_S1000000_n_0_0_1
    (broadcastInDim S100000 ![] bcast_S_S100000 (constant S_ .f32 0x00000000#32))
    (broadcastInDim S1000000x1 ![0] bcast_S1000000_S1000000x1_0 src)
    (broadcastInDim S1000000 ![] bcast_S_S1000000 (constant S_ .f32 0x3F800000#32))

/-- Under the precondition every node's out-degree is positive. -/
theorem outDeg_pos (x : FVec Ideal S100000x64 .f32) (src dst : IVec S1000000 32)
    (h : fn (F := Ideal) x src dst = fun _ => 1#1) (j : S100000.Idx) : (0 : EReal) < outDeg src j := by
  have h' : andi
      (Host.reduce IntOp.andi
        (cmpf .olt (Host.absf x) (broadcastInDim S100000x64 ![] bcast_S_S100000x64 (constant S_ .f32 0x7F800000#32)))
        (constantI S_ 1 1#1) reducesTo_S100000x64_S_d0_1 h_S_)
      (Host.reduce IntOp.andi
        (cmpf .ogt (outDeg src) (broadcastInDim S100000 ![] bcast_S_S100000 (constant S_ .f32 0x00000000#32)))
        (constantI S_ 1 1#1) reducesTo_S100000_S_d0 h_S_) = fun _ => 1#1 := h
  exact Cert.LibAllPositive.all_pos (outDeg src) _ (fun _ => Ideal.ofBits_zero_f32) reducesTo_S100000_S_d0 h_S_
    (Cert.LibAllPositive.second_of_and _ _ h') j

end Cert.Pre_finite_inputs.EveryNodeHasEdge

end
-- ==== Proof.LibScatterGather.lean ====
/-
  THE HOST'S ACCUMULATING SCATTER AND ITS ROW GATHER, READ AT ONE INDEX, for every size of the arrays.

  Two index patterns, each for a matrix of rows and for a flat array:

  * SCATTER-ADD OF ROWS. An operand `x : [N, C]`, a column of start words `idx : [M, 1]` and updates `upd : [M, C]`;
    update row `e` is added onto operand row `idx[e, 0]`, the word read as a SIGNED integer and NOT clamped: a start
    outside `[0, N)` drops the row. At the extended reals the result at `(v, f)` is therefore
        x (v, f) + Σ_{e : idx[e,0] = v} upd (e, f),
    the sum over exactly those `e` whose start word, read signed, is `v` (`scatterAdd_rows_apply`). The flat form, an
    operand `[N]` with updates `[M]`, is the same statement without the column coordinate (`scatterAdd_flat_apply`).
  * GATHER OF ROWS. An operand `x : [N, C]` and the same column of start words; result row `e` is operand row
    `idx[e, 0]`, the word read signed and CLAMPED into `[0, N − 1]` (`gather_rows_apply`); the flat form reads one
    element (`gather_flat_apply`).

  The proofs evaluate the dimension numbers' coordinate maps — which operand axis reads which update or result axis —
  once, for symbolic sizes: only the ranks, which are literals, decide them. For the scatter the set of update indices
  landing on `(v, f)` is then `{(e, f) | idx[e,0] = v}`, and the sum over it is re-indexed along `e ↦ (e, f)`.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## Scatter-add of rows: operand `[N, C]`, start words `[M, 1]`, updates `[M, C]` -/

/-- The dimension numbers of a row scatter: update axis 1 is the window axis and goes to operand axis 1; operand axis 0
    is inserted and receives the start index, whose single component is read along axis 1 of the start words. Their
    conditions `wf` are decided on literal sizes. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Rows
variable {N M C w : Nat} (wf : ScatterDims.WF ⟨2, ![N, C]⟩ ⟨2, ![M, 1]⟩ ⟨2, ![M, C]⟩ [1] [0] [0] 1)

/-- On operand axis 0 the window of update `(e, g)` starts at the start word of row `e`, read signed. -/
theorem rows_start0 (idx : IVec ⟨2, ![M, 1]⟩ w) (e : Fin M) (g : Fin C) :
    (rowScatterDims N M C wf).start (ix2 e g) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e g) ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the start index does not name, every window starts at `0`. -/
theorem rows_start1 (idx : IVec ⟨2, ![M, 1]⟩ w) (j : (⟨2, ![M, C]⟩ : Shape).Idx) :
    (rowScatterDims N M C wf).start j idx 1 = 0 := rfl

/-- Operand axis 0 is inserted: the window coordinate there is `0`. -/
theorem rows_window0 (j : (⟨2, ![M, C]⟩ : Shape).Idx) : (rowScatterDims N M C wf).window j 0 = 0 := rfl

/-- On operand axis 1 the window coordinate is the update's column. -/
theorem rows_window1 (j : (⟨2, ![M, C]⟩ : Shape).Idx) : (rowScatterDims N M C wf).window j 1 = (j 1).val := rfl

/-- WHERE AN UPDATE LANDS: update `(e, g)` lands on `(v, f)` exactly when the start word of row `e`, read signed, is `v`
    and `g = f`; a start word outside `[0, N)` lands nowhere. -/
theorem rows_resultIdx?_eq_some_iff (idx : IVec ⟨2, ![M, 1]⟩ w) (e : Fin M) (g : Fin C) (v : Fin N) (f : Fin C) :
    (rowScatterDims N M C wf).resultIdx? (ix2 e g) idx = some (ix2 v f)
      ↔ (idx (ix2 e (0 : Fin 1))).toInt = (v.val : ℤ) ∧ g = f := by
  have hs0 := rows_start0 wf idx e g
  have hs1 := rows_start1 wf idx (ix2 e g)
  have hw0 := rows_window0 wf (ix2 e g)
  have hw1 := rows_window1 wf (ix2 e g)
  have hg : ((ix2 e g : (⟨2, ![M, C]⟩ : Shape).Idx) 1).val = g.val := rfl
  have hvN : v.val < N := v.isLt
  have hgC : g.val < C := g.isLt
  have hsz0 : (⟨2, ![N, C]⟩ : Shape).size 0 = N := rfl
  have hsz1 : (⟨2, ![N, C]⟩ : Shape).size 1 = C := rfl
  unfold ScatterDims.resultIdx?
  split
  · rename_i h
    rw [Option.some.injEq]
    constructor
    · intro hfun
      have h0 := congrArg Fin.val (congrFun hfun 0)
      have h1 := congrArg Fin.val (congrFun hfun 1)
      have hv0 : ((ix2 v f : (⟨2, ![N, C]⟩ : Shape).Idx) 0).val = v.val := rfl
      have hf1 : ((ix2 v f : (⟨2, ![N, C]⟩ : Shape).Idx) 1).val = f.val := rfl
      simp only [hs0, hs1, hw0, hw1, hg, hv0, hf1] at h0 h1
      have hh := (h 0).1
      simp only [hs0, hw0] at hh
      refine ⟨by omega, Fin.ext (by omega)⟩
    · rintro ⟨ht, rfl⟩
      funext a
      refine Fin.ext ?_
      match a with
      | ⟨0, _⟩ =>
        show ((rowScatterDims N M C wf).start (ix2 e g) idx 0 + ((rowScatterDims N M C wf).window (ix2 e g) 0 : ℕ)).toNat = v.val
        rw [hs0, hw0, ht]; simp
      | ⟨1, _⟩ =>
        show ((rowScatterDims N M C wf).start (ix2 e g) idx 1 + ((rowScatterDims N M C wf).window (ix2 e g) 1 : ℕ)).toNat = g.val
        rw [hs1, hw1, hg]; simp
  · rename_i h
    constructor
    · intro hc; exact absurd hc (by simp)
    · rintro ⟨ht, rfl⟩
      exfalso; apply h
      intro a
      match a with
      | ⟨0, _⟩ =>
        show 0 ≤ (rowScatterDims N M C wf).start (ix2 e g) idx 0 + ((rowScatterDims N M C wf).window (ix2 e g) 0 : ℕ) ∧
          (rowScatterDims N M C wf).start (ix2 e g) idx 0 + ((rowScatterDims N M C wf).window (ix2 e g) 0 : ℕ) < ((⟨2, ![N, C]⟩ : Shape).size 0 : ℕ)
        rw [hs0, hw0, ht, hsz0]; omega
      | ⟨1, _⟩ =>
        show 0 ≤ (rowScatterDims N M C wf).start (ix2 e g) idx 1 + ((rowScatterDims N M C wf).window (ix2 e g) 1 : ℕ) ∧
          (rowScatterDims N M C wf).start (ix2 e g) idx 1 + ((rowScatterDims N M C wf).window (ix2 e g) 1 : ℕ) < ((⟨2, ![N, C]⟩ : Shape).size 1 : ℕ)
        rw [hs1, hw1, hg, hsz1]; omega

/-- THE ROW SCATTER-ADD READ AT `(v, f)`: the operand there plus the sum of `upd (e, f)` over the rows `e` whose start
    word, read signed, is `v`. -/
theorem scatterAdd_rows_apply {φ : FTy} (x : FVec Ideal ⟨2, ![N, C]⟩ φ) (idx : IVec ⟨2, ![M, 1]⟩ w)
    (upd : FVec Ideal ⟨2, ![M, C]⟩ φ) (v : Fin N) (f : Fin C) :
    Host.scatterAdd (rowScatterDims N M C wf) x idx upd (ix2 v f)
      = x (ix2 v f) + ∑ e ∈ Finset.univ.filter (fun e : Fin M => (idx (ix2 e (0 : Fin 1))).toInt = (v.val : ℤ)),
          upd (ix2 e f) := by
  show x (ix2 v f) + ∑ j ∈ Finset.univ.filter (fun j => (rowScatterDims N M C wf).resultIdx? j idx = some (ix2 v f)), upd j = _
  congr 1
  refine Finset.sum_nbij' (fun j => j 0) (fun e => ix2 e f) ?_ ?_ ?_ ?_ ?_
  · intro j hj
    obtain ⟨e, g, rfl⟩ : ∃ e g, j = ix2 e g := ⟨j 0, j 1, eq_ix2 j⟩
    rw [Finset.mem_filter] at hj
    show e ∈ _
    exact Finset.mem_filter.2 ⟨Finset.mem_univ _, ((rows_resultIdx?_eq_some_iff wf idx e g v f).1 hj.2).1⟩
  · intro e he
    rw [Finset.mem_filter] at he ⊢
    exact ⟨Finset.mem_univ _, (rows_resultIdx?_eq_some_iff wf idx e f v f).2 ⟨he.2, rfl⟩⟩
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl
  · intro e _
    rfl
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl

end Rows

/-! ## Scatter-add into a flat array: operand `[N]`, start words `[M, 1]`, updates `[M]` -/

/-- The dimension numbers of a flat scatter: no window axis; operand axis 0 is inserted and receives the start index,
    whose single component is read along axis 1 of the start words. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Flat
variable {N M w : Nat} (wf : ScatterDims.WF ⟨1, ![N]⟩ ⟨2, ![M, 1]⟩ ⟨1, ![M]⟩ [] [0] [0] 1)

/-- The window of update `e` starts at the start word of row `e`, read signed. -/
theorem flat_start0 (idx : IVec ⟨2, ![M, 1]⟩ w) (e : Fin M) :
    (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the window coordinate is `0`. -/
theorem flat_window0 (j : (⟨1, ![M]⟩ : Shape).Idx) : (flatScatterDims N M wf).window j 0 = 0 := rfl

/-- WHERE AN UPDATE LANDS: update `e` lands on `v` exactly when the start word of row `e`, read signed, is `v`. -/
theorem flat_resultIdx?_eq_some_iff (idx : IVec ⟨2, ![M, 1]⟩ w) (e : Fin M) (v : Fin N) :
    (flatScatterDims N M wf).resultIdx? (ix1 e) idx = some (ix1 v)
      ↔ (idx (ix2 e (0 : Fin 1))).toInt = (v.val : ℤ) := by
  have hs0 := flat_start0 wf idx e
  have hw0 := flat_window0 wf (ix1 e)
  have hvN : v.val < N := v.isLt
  have hsz0 : (⟨1, ![N]⟩ : Shape).size 0 = N := rfl
  unfold ScatterDims.resultIdx?
  split
  · rename_i h
    rw [Option.some.injEq]
    constructor
    · intro hfun
      have h0 := congrArg Fin.val (congrFun hfun 0)
      have hv0 : ((ix1 v : (⟨1, ![N]⟩ : Shape).Idx) 0).val = v.val := rfl
      simp only [hs0, hw0, hv0] at h0
      have hh := (h 0).1
      simp only [hs0, hw0] at hh
      omega
    · intro ht
      funext a
      refine Fin.ext ?_
      match a with
      | ⟨0, _⟩ =>
        show ((flatScatterDims N M wf).start (ix1 e) idx 0 + ((flatScatterDims N M wf).window (ix1 e) 0 : ℕ)).toNat = v.val
        rw [hs0, hw0, ht]; simp
  · rename_i h
    constructor
    · intro hc; exact absurd hc (by simp)
    · intro ht
      exfalso; apply h
      intro a
      match a with
      | ⟨0, _⟩ =>
        show 0 ≤ (flatScatterDims N M wf).start (ix1 e) idx 0 + ((flatScatterDims N M wf).window (ix1 e) 0 : ℕ) ∧
          (flatScatterDims N M wf).start (ix1 e) idx 0 + ((flatScatterDims N M wf).window (ix1 e) 0 : ℕ) < ((⟨1, ![N]⟩ : Shape).size 0 : ℕ)
        rw [hs0, hw0, ht, hsz0]; omega

/-- THE FLAT SCATTER-ADD READ AT `v`: the operand there plus the sum of `upd e` over the `e` whose start word, read
    signed, is `v`. -/
theorem scatterAdd_flat_apply {φ : FTy} (x : FVec Ideal ⟨1, ![N]⟩ φ) (idx : IVec ⟨2, ![M, 1]⟩ w)
    (upd : FVec Ideal ⟨1, ![M]⟩ φ) (v : Fin N) :
    Host.scatterAdd (flatScatterDims N M wf) x idx upd (ix1 v)
      = x (ix1 v) + ∑ e ∈ Finset.univ.filter (fun e : Fin M => (idx (ix2 e (0 : Fin 1))).toInt = (v.val : ℤ)),
          upd (ix1 e) := by
  show x (ix1 v) + ∑ j ∈ Finset.univ.filter (fun j => (flatScatterDims N M wf).resultIdx? j idx = some (ix1 v)), upd j = _
  congr 1
  refine Finset.sum_nbij' (fun j => j 0) (fun e => ix1 e) ?_ ?_ ?_ ?_ ?_
  · intro j hj
    obtain ⟨e, rfl⟩ : ∃ e, j = ix1 e := ⟨j 0, eq_ix1 j⟩
    rw [Finset.mem_filter] at hj
    show e ∈ _
    exact Finset.mem_filter.2 ⟨Finset.mem_univ _, (flat_resultIdx?_eq_some_iff wf idx e v).1 hj.2⟩
  · intro e he
    rw [Finset.mem_filter] at he ⊢
    exact ⟨Finset.mem_univ _, (flat_resultIdx?_eq_some_iff wf idx e v).2 he.2⟩
  · intro j _
    exact (eq_ix1 j).symm
  · intro e _
    rfl
  · intro j _
    exact congrArg upd (eq_ix1 j)

end Flat

/-! ## Gather of rows: operand `[N, C]`, start words `[M, 1]`, result `[M, C]` -/

/-- The dimension numbers of a row gather: result axis 1 is the offset axis and reads operand axis 1 over its whole
    width `C`; operand axis 0 is collapsed (a slice of one row) and receives the start index, whose single component is
    read along axis 1 of the start words. Their conditions `wf` are decided on literal sizes. -/
abbrev rowGatherDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at column `f` of the row named by the start word of row `e`, read
    signed and clamped into `[0, N − 1]`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (rowGatherDims N M C wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N M C wf).start (ix2 e f) idx 0 + (rowGatherDims N M C wf).batchCoord (ix2 e f) 0
      + (rowGatherDims N M C wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e f) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e f) idx 1 + (rowGatherDims N M C wf).batchCoord (ix2 e f) 1
      + (rowGatherDims N M C wf).offCoord (ix2 e f) 1 = f.val
    rw [GatherDims.batchCoord_eq_zero _ _ _ List.not_mem_nil]
    have hst : (rowGatherDims N M C wf).start (ix2 e f) idx 1 = 0 := rfl
    have hoff : (rowGatherDims N M C wf).offCoord (ix2 e f) 1 = f.val := rfl
    rw [hst, hoff]; simp

/-! ## Gather from a flat array: operand `[N]`, start words `[M, 1]`, result `[M]` -/

/-- The dimension numbers of a flat gather: no offset axis; the one operand axis is collapsed and receives the start
    index, whose single component is read along axis 1 of the start words. -/
abbrev flatGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start word of row `e`, read signed and clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A record written out at literal sizes is the generic one -/

/-- At literal sizes the dimension numbers written out field by field, their conditions decided, are the generic record:
    the two agree field for field, and the conditions are a proposition. -/
example :
    ({ updateWindowDims := [1], insertedWindowDims := [0], scatterDimsToOperandDims := [0], indexVectorDim := 1,
       wf := by decide } : ScatterDims ⟨2, ![50000, 64]⟩ ⟨2, ![850000, 1]⟩ ⟨2, ![850000, 64]⟩)
      = rowScatterDims 50000 850000 64 (by decide) := rfl

/-- Likewise for a gather's. -/
example :
    ({ offsetDims := [1], collapsedSliceDims := [0], operandBatchingDims := [], startIndicesBatchingDims := [],
       startIndexMap := [0], indexVectorDim := 1, sliceSizes := ![1, 64],
       wf := by decide } : GatherDims ⟨2, ![50000, 64]⟩ ⟨2, ![800000, 1]⟩ ⟨2, ![800000, 64]⟩)
      = rowGatherDims 50000 800000 64 (by decide) := rfl

end Cert.Lib.ScatterGather

end
-- ==== Proof.Degree.lean ====
/-
  THE OUT-DEGREE AND THE TWO SPELLINGS OF ITS INVERSE SQUARE ROOT.

  A node's out-degree is a count: an array of zeros onto which a one is added for every edge leaving the node. Read
  at a node it is therefore `0 + Σ_{e leaving v} 1`, a sum of ones over a finite set — either `0` (no edge leaves) or
  at least `1`. So a POSITIVE out-degree is at least one.

  One program scales by `1 / √deg`; the other by the guarded `if deg > 0 then 1 / √(max deg 1) else 0`. Where
  `deg ≥ 1` the comparison holds and `max deg 1 = deg`, so the guarded form is the plain one. (Where `deg = 0` they
  differ — `0` against `1 / 0 = +∞` — which is why every node is asked to have an outgoing edge.)
-/
import Idealize.ShloMosaic.PureOps.Ideal
import Idealize.ShloMosaic.PureOps.Ideal.Laws
import Idealize.ShloMosaic.Lib.ValueIdx
import Idealize.ShloMosaic.Lib.IdealHost
import proofs.«126317_j34703335752220_2_alg».proof.Proof.LibScatterGather

noncomputable section

open scoped BigOperators

namespace Cert.Degree

open Idealize.ShloMosaic Idealize.ShloMosaic.ValueIdx Cert.Lib.ScatterGather

/-- A positive sum of ones is at least one: the set summed over cannot be empty, and one of its terms is already `1`
    while the others are nonnegative. -/
theorem one_le_sum_ones {ι : Type} (s : Finset ι) (h : (0 : EReal) < 0 + ∑ _e ∈ s, (1 : EReal)) :
    (1 : EReal) ≤ 0 + ∑ _e ∈ s, (1 : EReal) := by
  rw [zero_add] at h ⊢
  rcases s.eq_empty_or_nonempty with rfl | ⟨a, ha⟩
  · simp at h
  · exact Finset.single_le_sum (f := fun _ => (1 : EReal)) (fun _ _ => zero_le_one) ha

section Count
variable {N M w : Nat} (wf : ScatterDims.WF ⟨1, ![N]⟩ ⟨2, ![M, 1]⟩ ⟨1, ![M]⟩ [] [0] [0] 1)

/-- THE OUT-DEGREE IS A COUNT: ones scatter-added onto zeros. Where it is positive it is at least one. -/
theorem one_le_count (x : FVec Ideal ⟨1, ![N]⟩ .f32) (idx : IVec ⟨2, ![M, 1]⟩ w) (upd : FVec Ideal ⟨1, ![M]⟩ .f32)
    (hx : ∀ j, (x j : EReal) = 0) (hu : ∀ j, (upd j : EReal) = 1) (j : (⟨1, ![N]⟩ : Shape).Idx)
    (h : (0 : EReal) < Host.scatterAdd (flatScatterDims N M wf) x idx upd j) :
    (1 : EReal) ≤ Host.scatterAdd (flatScatterDims N M wf) x idx upd j := by
  obtain ⟨v, rfl⟩ : ∃ v, j = ix1 v := ⟨j 0, eq_ix1 j⟩
  rw [scatterAdd_flat_apply] at h ⊢
  simp only [hx, hu] at h ⊢
  exact one_le_sum_ones _ h

end Count

/-- At one node: with the degree `a` at least one (so positive), the guarded inverse root is the plain one. -/
theorem guarded_eq (a z o e : EReal) (hz : z = 0) (ho : o = 1) (h0 : 0 < a) (h1 : 1 ≤ a) :
    Scalar.select (Ideal.cmp .ogt a z) (Ideal.div o (Ideal.sqrt (max a o))) e = Ideal.div o (Ideal.sqrt a) := by
  subst hz ho
  rw [max_eq_left h1]
  have hc : Ideal.cmp .ogt a 0 = 1#1 := by simp [Ideal.cmp, h0]
  rw [hc, select_one]

/-- Array by array: where every degree is positive and at least one, the guarded scale
    `select (deg > 0) (1 / √(max deg 1)) fill` is the plain scale `1 / √deg`, whatever the fill. -/
theorem guarded_scale_eq {s : Shape} (deg zero one fill : FVec Ideal s .f32)
    (hzero : ∀ j, (zero j : EReal) = 0) (hone : ∀ j, (one j : EReal) = 1)
    (hpos : ∀ j, (0 : EReal) < deg j) (hge : ∀ j, (1 : EReal) ≤ deg j) :
    select (cmpf .ogt deg zero) (Host.divf one (Host.sqrt (maximumf deg one))) fill = Host.divf one (Host.sqrt deg) := by
  funext j
  exact guarded_eq (deg j) (zero j) (one j) (fill j) (hzero j) (hone j) (hpos j) (hge j)

end Cert.Degree

end
-- ==== Proof.LibVecLayout.lean ====
/-
  A vector laid out as a column or as a row.

  A vector of `n` entries becomes an `n × 1` column, or a `1 × n` row, in two ways that programs use interchangeably: by
  a reshape (the entries keep their row-major order), or by a broadcast along a new axis of extent one (entry `p` of
  the result on the old axis is entry `p` of the vector). Read at `(p, 0)`, respectively `(0, q)`, the reshape gives
  entry `p`, respectively `q` (`column_apply`, `row_apply`): the row-major position of `(p, 0)` in `n × 1` is `p · 1 + 0`
  and that of `(0, q)` in `1 × n` is `0 · n + q`. So the two ways give the same array (`column_eq_broadcast`,
  `row_eq_broadcast`), for every `n` and every proof of the two side conditions.
-/
import Idealize.ShloMosaic.Lib.ValueIdx
import Idealize.ShloMosaic.Lib.Pipeline.Value

noncomputable section

namespace Cert.LibVecLayout

open Idealize.ShloMosaic Idealize.ShloMosaic.ValueIdx

/-- A vector laid out as a column, at row `p`. -/
theorem column_apply {n : Nat} (y : (⟨1, ![n]⟩ : Shape).Idx → EReal) (h : (⟨1, ![n]⟩ : Shape).ShapeCasts ⟨2, ![n, 1]⟩)
    (p : Fin n) : shapeCast (⟨2, ![n, 1]⟩ : Shape) y h (ix2 p (0 : Fin 1)) = y (ix1 p) :=
  shapeCast_apply y h (ix2 p (0 : Fin 1)) (ix1 p) (by
    rw [Shape.rowMajor_val_one, Shape.rowMajor_val_two]
    show p.val = p.val * 1 + 0
    omega)

/-- A vector laid out as a row, at column `q`. -/
theorem row_apply {n : Nat} (y : (⟨1, ![n]⟩ : Shape).Idx → EReal) (h : (⟨1, ![n]⟩ : Shape).ShapeCasts ⟨2, ![1, n]⟩)
    (q : Fin n) : shapeCast (⟨2, ![1, n]⟩ : Shape) y h (ix2 (0 : Fin 1) q) = y (ix1 q) :=
  shapeCast_apply y h (ix2 (0 : Fin 1) q) (ix1 q) (by
    rw [Shape.rowMajor_val_one, Shape.rowMajor_val_two]
    show q.val = 0 * n + q.val
    omega)

/-- Laying a vector out as a column by a reshape or by a broadcast along a new unit axis gives the same array. -/
theorem column_eq_broadcast {n : Nat} (y : (⟨1, ![n]⟩ : Shape).Idx → EReal) (h : (⟨1, ![n]⟩ : Shape).ShapeCasts ⟨2, ![n, 1]⟩)
    (h' : (⟨1, ![n]⟩ : Shape).BroadcastsInDim ⟨2, ![n, 1]⟩ ![0]) :
    shapeCast (⟨2, ![n, 1]⟩ : Shape) y h = broadcastInDim (⟨2, ![n, 1]⟩ : Shape) ![0] h' y := by
  funext i
  obtain ⟨p, z, rfl⟩ : ∃ (p : Fin n) (z : Fin 1), i = ix2 p z := ⟨i 0, i 1, eq_ix2 i⟩
  obtain rfl : z = 0 := Subsingleton.elim _ _
  rw [column_apply y h p]
  exact (broadcastInDim_apply _ h' y (ix2 p (0 : Fin 1)) (ix1 p) (fun a => by
    match a with
    | ⟨0, _⟩ =>
      show p.val = if n = 1 then 0 else p.val
      split
      · have := p.isLt; omega
      · rfl)).symm

/-- Laying a vector out as a row by a reshape or by a broadcast along a new unit axis gives the same array. -/
theorem row_eq_broadcast {n : Nat} (y : (⟨1, ![n]⟩ : Shape).Idx → EReal) (h : (⟨1, ![n]⟩ : Shape).ShapeCasts ⟨2, ![1, n]⟩)
    (h' : (⟨1, ![n]⟩ : Shape).BroadcastsInDim ⟨2, ![1, n]⟩ ![1]) :
    shapeCast (⟨2, ![1, n]⟩ : Shape) y h = broadcastInDim (⟨2, ![1, n]⟩ : Shape) ![1] h' y := by
  funext i
  obtain ⟨z, q, rfl⟩ : ∃ (z : Fin 1) (q : Fin n), i = ix2 z q := ⟨i 0, i 1, eq_ix2 i⟩
  obtain rfl : z = 0 := Subsingleton.elim _ _
  rw [row_apply y h q]
  exact (broadcastInDim_apply _ h' y (ix2 (0 : Fin 1) q) (ix1 q) (fun a => by
    match a with
    | ⟨0, _⟩ =>
      show q.val = if n = 1 then 0 else q.val
      split
      · have := q.isLt; omega
      · rfl)).symm

end Cert.LibVecLayout

end
-- ==== Proof.Bridge.lean ====
/-
  THE TWO PROGRAMS COMPUTE ONE ARRAY, where every node has an outgoing edge.

  With `deg` the out-degree, the reference scales by `c = 1 / √deg`: it sums, into each destination node `r`, the
  source rows `x(src e) · c(src e)` of the edges arriving there, and returns `c(r) · agg(r, q)`. The kernel program
  does the same with the guarded `g = (deg > 0 ? 1 / √(max deg 1) : 0)` in place of `c`, and returns
  `agg(r, q) · g(r)`, the scale read from a column.

  The out-degree is a count, so where it is positive it is at least one, the comparison holds and `max deg 1 = deg`:
  under the precondition `g = c` as arrays. The aggregated arrays are then the same term, a column made by a reshape
  is the column made by a broadcast, and the two products differ by the order of their factors.
-/
import proofs.«126317_j34703335752220_2_alg».proof.Proof.HostPart
import proofs.«126317_j34703335752220_2_alg».proof.Proof.RowScale
import proofs.«126317_j34703335752220_2_alg».proof.Proof.EveryNodeHasEdge
import proofs.«126317_j34703335752220_2_alg».proof.Proof.Degree
import proofs.«126317_j34703335752220_2_alg».proof.Proof.LibVecLayout
import proofs.«126317_j34703335752220_2_alg».proof.Proof.Gen.ReferenceIdeal
import Idealize.ShloMosaic.Lib.IdealHost

noncomputable section

namespace Cert.Bridge

open Idealize.ShloMosaic Idealize.ShloMosaic.ValueIdx
open Cert.KernelIdeal Cert.KernelIdeal.Facts₀ Cert.KernelIdeal.HostPart Cert.KernelIdeal.RowScale

/-- The reference's per-node scale: `1 / √deg`. -/
def plainScale (src : IVec S1000000 32) : FVec Ideal S100000 .f32 :=
  Host.divf (broadcastInDim S100000 ![] bcast_S_S100000 (constant S_ .f32 0x3F800000#32)) (Host.sqrt (outDeg src))

/-- Where every out-degree is positive, the guarded scale is the plain one. -/
theorem guarded_eq_plain (src : IVec S1000000 32) (hpos : ∀ j, (0 : EReal) < outDeg (F := Ideal) src j) :
    guardedScale (F := Ideal) src = plainScale src := by
  unfold guardedScale plainScale
  exact Cert.Degree.guarded_scale_eq (outDeg src) _ _ _ (fun _ => Ideal.ofBits_zero_f32) (fun _ => Ideal.ofBits_one_f32)
    hpos (fun j => Cert.Degree.one_le_count (N := 100000) (M := 1000000)
      scatter_S100000_S1000000x1_S1000000_n_0_0_1_wf _ _ _ (fun _ => Ideal.ofBits_zero_f32)
      (fun _ => Ideal.ofBits_one_f32) j (hpos j))

/-- A scale `s` spread over the rows from the left is the row scaling by `s` as a column from the right: the column by
    a reshape is the column by a broadcast, each row of the spread array repeats its column entry, and the product of
    two extended reals does not depend on the order of its factors. -/
theorem spread_mul_eq_rowScaled (a : FVec Ideal S100000x64 .f32) (s : FVec Ideal S100000 .f32)
    (hb1 : S100000.BroadcastsInDim S100000x1 ![0]) (hb2 : S100000x1.BroadcastsInDim S100000x64 ![0, 1])
    (hc : S100000.ShapeCasts S100000x1) :
    mulf (broadcastInDim S100000x64 ![0, 1] hb2 (broadcastInDim S100000x1 ![0] hb1 s)) a
      = rowScaled (F := Ideal) a (shapeCast S100000x1 s hc) := by
  rw [Cert.LibVecLayout.column_eq_broadcast s hc hb1]
  funext i
  show (broadcastInDim S100000x64 ![0, 1] hb2 (broadcastInDim S100000x1 ![0] hb1 s)) i * a i
    = a i * (broadcastInDim S100000x1 ![0] hb1 s) (rowOf i)
  rw [mul_comm]
  congr 1
  exact broadcastInDim_apply _ hb2 _ i (rowOf i) (fun d => by
    match d with
    | ⟨0, _⟩ => show (i 0).val = if (100000 : Nat) = 1 then 0 else (i 0).val; rw [if_neg (by decide)]
    | ⟨1, _⟩ => show 0 = if (1 : Nat) = 1 then 0 else (i 1).val; rw [if_pos rfl])

/-- THE BRIDGE: the reference's result term is the kernel's result array, where every out-degree is positive. -/
theorem reference_eq_kernel (x : FVec Ideal S100000x64 .f32) (src dst : IVec S1000000 32)
    (hb1 : S100000.BroadcastsInDim S100000x1 ![0]) (hb2 : S100000x1.BroadcastsInDim S100000x64 ![0, 1])
    (hpos : ∀ j, (0 : EReal) < outDeg (F := Ideal) src j) :
    mulf (broadcastInDim S100000x64 ![0, 1] hb2 (broadcastInDim S100000x1 ![0] hb1 (plainScale src)))
        (aggregated x src dst (plainScale src))
      = rowScaled (F := Ideal) (aggregated x src dst (guardedScale (F := Ideal) src))
          (shapeCast S100000x1 (guardedScale (F := Ideal) src) shapeCasts_S100000_S100000x1) := by
  rw [guarded_eq_plain src hpos]
  exact spread_mul_eq_rowScaled _ _ hb1 hb2 _

end Cert.Bridge

end
-- ==== Proof.lean ====
/-
  A degree-normalised neighbour sum over a graph of 100000 nodes and 1000000 edges, with 64 features per node.

  With `deg(v)` the number of edges leaving node `v` and `c(v) = 1 / √deg(v)`, both programs return
      out(r, q) = c(r) · Σ_{e : dst e = r} x(src e, q) · c(src e).
  The reference computes `c` as written. The kernel program computes the guarded
  `g(v) = if deg(v) > 0 then 1 / √(max (deg v) 1) else 0`, sums the messages on the host, and leaves the last scaling to
  a kernel that walks ten blocks of 10000 rows, multiplying each row of the sums by that row's entry of `g`.

  At a node with no outgoing edge the two scales differ (`0` against `1 / 0 = +∞`), and so do the results wherever such
  a node receives a message; the precondition therefore asks, besides finite features, that every node has an outgoing
  edge (`deg > 0` everywhere — where the reference's own `1 / √deg` is a number). The out-degree is a count, so a
  positive one is at least one; then the comparison holds, `max deg 1 = deg`, and `g = c` (Proof/Degree.lean,
  Proof/EveryNodeHasEdge.lean). The host parts of the two programs are then one term (Proof/HostPart.lean), the
  kernel's ten blocks tile the result with `agg(r, q) · g(r)` (Proof/RowScale.lean), and the two products differ only by
  the order of their factors (Proof/Bridge.lean). Nothing here needs the features to be finite: a product of extended
  reals commutes at the infinities too.

  The three frames are the generated ones (the reference's is its generated run with the result dropped); the ideal
  pass rewrote nothing, so `preserves` has nothing to state.
-/
import proofs.«126317_j34703335752220_2_alg».proof.Defs
import proofs.«126317_j34703335752220_2_alg».proof.Proof.Gen.Kernel
import proofs.«126317_j34703335752220_2_alg».proof.Proof.Gen.Kernel.Skeleton
import proofs.«126317_j34703335752220_2_alg».proof.Proof.Gen.Kernel.Launch
import proofs.«126317_j34703335752220_2_alg».proof.Proof.Gen.Kernel.Points
import proofs.«126317_j34703335752220_2_alg».proof.Proof.Gen.Kernel.Frame
import proofs.«126317_j34703335752220_2_alg».proof.Proof.Gen.KernelIdeal
import proofs.«126317_j34703335752220_2_alg».proof.Proof.Gen.KernelIdeal.Skeleton
import proofs.«126317_j34703335752220_2_alg».proof.Proof.Gen.KernelIdeal.Launch
import proofs.«126317_j34703335752220_2_alg».proof.Proof.Gen.KernelIdeal.Points
import proofs.«126317_j34703335752220_2_alg».proof.Proof.Gen.KernelIdeal.Frame
import proofs.«126317_j34703335752220_2_alg».proof.Proof.Gen.ReferenceIdeal
import proofs.«126317_j34703335752220_2_alg».proof.Proof.Gen.Pre_finite_inputs
import proofs.«126317_j34703335752220_2_alg».proof.Proof.Gen.KernelIdeal.Value
import proofs.«126317_j34703335752220_2_alg».proof.Proof.Gen.ReferenceIdeal.Run
import proofs.«126317_j34703335752220_2_alg».proof.Proof.Bridge
import Idealize.ShloMosaic.Adequacy
import Idealize.ShloMosaic.Init

noncomputable section

namespace Cert.Proof

open Idealize.ShloMosaic Idealize.ShloMosaic.TcCoe Idealize.SL.Sem

/-- The three programs run to the end without a fault and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel program is the kernel program's own text: no rewrite to account for. -/
theorem preserves : Cert.preserves_Kernel_KernelIdeal := trivial

/-- At the extended reals, from memories agreeing on the arguments, the kernel program's result array — the
    aggregated messages, each row times its guarded scale — is the reference's: its plain scale times the aggregated
    messages, the two scales equal because every node has an outgoing edge. -/
theorem algebraic : Cert.algebraic_KernelIdeal_ReferenceIdeal := by
  intro m ρ m' ρ' hpre hagree
  refine ⟨fun c => Cert.KernelIdeal.RowScale.rowScaled (Cert.KernelIdeal.Gen.V m c Cert.KernelIdeal.main_v31)
      (Cert.KernelIdeal.Gen.V m c Cert.KernelIdeal.main_v32), Cert.KernelIdeal.RowScale.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  beta_reduce
  rw [Cert.KernelIdeal.HostPart.V_aggregated, Cert.KernelIdeal.HostPart.V_scaleColumn]
  exact Cert.Bridge.reference_eq_kernel _ _ _ _ _
    (fun j => Cert.Pre_finite_inputs.EveryNodeHasEdge.outDeg_pos _ _ _ (hpre c) j)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
